-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x6400000 : Shape := ⟨2, ![2, 6400000]⟩
abbrev S6400000 : Shape := ⟨1, ![6400000]⟩
abbrev S6400000x2 : Shape := ⟨2, ![6400000, 2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S6400000x2 : S_.BroadcastsInDim S6400000x2 (![] : Fin 0 → Fin S6400000x2.rank)
  reducesTo_S6400000x2_S_d0_1 : S6400000x2.ReducesTo [0, 1] S_

variable [Facts]

def fn {F : FTy → Type} [FloatOps F] (main_arg0 : FVec F S100000x4 .f32) (main_arg1 : IVec S2x6400000 32) (main_arg2 : FVec F S6400000 .f32) (main_arg3 : FVec F S6400000x2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S6400000x2 .f32 := Host.absf main_arg3
  let main_cst_2 : FVec F S_ .f32 := constant S_ .f32 0x7F800000#32
  let main_v10 : FVec F S6400000x2 .f32 := broadcastInDim S6400000x2 ![] bcast_S_S6400000x2 main_cst_2
  let main_v11 : IVec S6400000x2 1 := cmpf .olt main_v9 main_v10
  let main_c_3 : IVec S_ 1 := constantI S_ 1 1#1
  let main_v12 : IVec S_ 1 := (fun x v => Host.reduce IntOp.andi x v reducesTo_S6400000x2_S_d0_1 h_S_) main_v11 main_c_3
  let main_v13 : IVec S_ 1 := andi main_v8 main_v12
  main_v13
-- ==== Kernel.lean ====
abbrev S100000x4 : Shape := ⟨2, ![100000, 4]⟩
abbrev S2x6400000 : Shape := ⟨2, ![2, 6400000]⟩
abbrev S6400000 : Shape := ⟨1, ![6400000]⟩
abbrev S6400000x2 : Shape := ⟨2, ![6400000, 2]⟩
abbrev S1x6400000 : Shape := ⟨2, ![1, 6400000]⟩
abbrev S_ : Shape := ⟨0, ![]⟩
abbrev S6400000x1 : Shape := ⟨2, ![6400000, 1]⟩
abbrev S50000x128 : Shape := ⟨2, ![50000, 128]⟩
abbrev S2000x128 : Shape := ⟨2, ![2000, 128]⟩
abbrev S12800000 : Shape := ⟨1, ![12800000]⟩
abbrev S100000 : Shape := ⟨1, ![100000]⟩
abbrev S12800000x1 : Shape := ⟨2, ![12800000, 1]⟩

abbrev nBuf : Space → Nat
  | .hbm => 60
  | .vmem => 12
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S6400000, .f32⟩
  | .hbm, ⟨3, _⟩ => ⟨S6400000x2, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S_, .i32⟩
  | .hbm, ⟨9, _⟩ => ⟨S6400000, .i32⟩
  | .hbm, ⟨10, _⟩ => ⟨S6400000, .i1⟩
  | .hbm, ⟨11, _⟩ => ⟨S_, .i32⟩
  | .hbm, ⟨12, _⟩ => ⟨S6400000, .i32⟩
  | .hbm, ⟨13, _⟩ => ⟨S6400000, .i32⟩
  | .hbm, ⟨14, _⟩ => ⟨S6400000, .i32⟩
  | .hbm, ⟨15, _⟩ => ⟨S6400000x1, .i32⟩
  | .hbm, ⟨16, _⟩ => ⟨S_, .i32⟩
  | .hbm, ⟨17, _⟩ => ⟨S6400000x1, .i32⟩
  | .hbm, ⟨18, _⟩ => ⟨S6400000x2, .i32⟩
  | .hbm, ⟨19, _⟩ => ⟨S6400000x2, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S_, .i32⟩
  | .hbm, ⟨29, _⟩ => ⟨S6400000x1, .i32⟩
  | .hbm, ⟨30, _⟩ => ⟨S6400000x2, .i32⟩
  | .hbm, ⟨31, _⟩ => ⟨S6400000x2, .f32⟩
  | .hbm, ⟨32, _⟩ => ⟨S6400000x2, .f32⟩
  | .hbm, ⟨33, _⟩ => ⟨S6400000x1, .f32⟩
  | .hbm, ⟨34, _⟩ => ⟨S6400000, .f32⟩
  | .hbm, ⟨35, _⟩ => ⟨S50000x128, .f32⟩
  | .hbm, ⟨36, _⟩ => ⟨S6400000x1, .f32⟩
  | .hbm, ⟨37, _⟩ => ⟨S6400000, .f32⟩
  | .hbm, ⟨38, _⟩ => ⟨S50000x128, .f32⟩
  | .hbm, ⟨39, _⟩ => ⟨S6400000x1, .f32⟩
  | .hbm, ⟨40, _⟩ => ⟨S6400000, .f32⟩
  | .hbm, ⟨41, _⟩ => ⟨S50000x128, .f32⟩
  | .hbm, ⟨42, _⟩ => ⟨S6400000x1, .f32⟩
  | .hbm, ⟨43, _⟩ => ⟨S6400000, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S6400000, .f32⟩
  | .hbm, ⟨48, _⟩ => ⟨S6400000, .f32⟩
  | .hbm, ⟨49, _⟩ => ⟨S12800000, .f32⟩
  | .hbm, ⟨50, _⟩ => ⟨S12800000, .i32⟩
  | .hbm, ⟨51, _⟩ => ⟨S_, .f32⟩
  | .hbm, ⟨52, _⟩ => ⟨S100000, .f32⟩
  | .hbm, ⟨53, _⟩ => ⟨S12800000x1, .i32⟩
  | .hbm, ⟨54, _⟩ => ⟨S100000, .f32⟩
  | .hbm, ⟨55, _⟩ => ⟨S100000, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  concatenates_S6400000x1_S6400000x1_S6400000x2_d1 : Shape.Concatenates [S6400000x1, S6400000x1] S6400000x2 1
  slices_S6400000x2_S6400000x1_0_0 : S6400000x2.Slices ![0, 0] S6400000x1
  shapeCasts_S6400000x1_S6400000 : S6400000x1.ShapeCasts S6400000
  shapeCasts_S6400000_S50000x128 : S6400000.ShapeCasts S50000x128
  slices_S6400000x2_S6400000x1_0_1 : S6400000x2.Slices ![0, 1] S6400000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S6400000 : S50000x128.ShapeCasts S6400000
  concatenates_S6400000_S6400000_S12800000_d0 : Shape.Concatenates [S6400000, S6400000] S12800000 0
  bcast_S_S100000 : S_.BroadcastsInDim S100000 (![] : Fin 0 → Fin S100000.rank)
  bcast_S12800000_S12800000x1_0 : S12800000.BroadcastsInDim S12800000x1 (![0] : Fin 1 → Fin S12800000x1.rank)
  reducesTo_S100000_S_d0 : S100000.ReducesTo [0] S_
  h_S_ : 0 < S_.numel
  gather_S100000x4_S6400000x2_S6400000x2_1_0_n_n_01_1_12_wf : GatherDims.WF S100000x4 S6400000x2 S6400000x2 [1] [0] [] [0, 1] [] 1 ![1, 2]
  scatter_S100000_S12800000x1_S12800000_n_0_0_1_wf : ScatterDims.WF S100000 S12800000x1 S12800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S100000x4_S6400000x2_S6400000x2_1_0_n_n_01_1_12 : GatherDims S100000x4 S6400000x2 S6400000x2 where
  offsetDims := [1]
  collapsedSliceDims := [0]
  operandBatchingDims := []
  startIndicesBatchingDims := []
  startIndexMap := [0, 1]
  indexVectorDim := 1
  sliceSizes := ![1, 2]
  wf := gather_S100000x4_S6400000x2_S6400000x2_1_0_n_n_01_1_12_wf
def scatter_S100000_S12800000x1_S12800000_n_0_0_1 : ScatterDims S100000 S12800000x1 S12800000 where
  updateWindowDims := []
  insertedWindowDims := [0]
  scatterDimsToOperandDims := [0]
  indexVectorDim := 1
  wf := scatter_S100000_S12800000x1_S12800000_n_0_0_1_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x4 : Shape := ⟨2, ![100000, 4]⟩
abbrev S2x6400000 : Shape := ⟨2, ![2, 6400000]⟩
abbrev S6400000 : Shape := ⟨1, ![6400000]⟩
abbrev S6400000x2 : Shape := ⟨2, ![6400000, 2]⟩
abbrev S1x6400000 : Shape := ⟨2, ![1, 6400000]⟩
abbrev S_ : Shape := ⟨0, ![]⟩
abbrev S6400000x1 : Shape := ⟨2, ![6400000, 1]⟩
abbrev S100000 : Shape := ⟨1, ![100000]⟩

abbrev nBuf : Space → Nat
  | .hbm => 68
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S6400000, .f32⟩
  | .hbm, ⟨3, _⟩ => ⟨S6400000x2, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S_, .i32⟩
  | .hbm, ⟨9, _⟩ => ⟨S6400000, .i32⟩
  | .hbm, ⟨10, _⟩ => ⟨S6400000, .i1⟩
  | .hbm, ⟨11, _⟩ => ⟨S_, .i32⟩
  | .hbm, ⟨12, _⟩ => ⟨S6400000, .i32⟩
  | .hbm, ⟨13, _⟩ => ⟨S6400000, .i32⟩
  | .hbm, ⟨14, _⟩ => ⟨S6400000, .i32⟩
  | .hbm, ⟨15, _⟩ => ⟨S6400000x1, .i32⟩
  | .hbm, ⟨16, _⟩ => ⟨S_, .i32⟩
  | .hbm, ⟨17, _⟩ => ⟨S6400000x1, .i32⟩
  | .hbm, ⟨18, _⟩ => ⟨S6400000x2, .i32⟩
  | .hbm, ⟨19, _⟩ => ⟨S6400000x2, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S_, .i32⟩
  | .hbm, ⟨29, _⟩ => ⟨S6400000x1, .i32⟩
  | .hbm, ⟨30, _⟩ => ⟨S6400000x2, .i32⟩
  | .hbm, ⟨31, _⟩ => ⟨S6400000x2, .f32⟩
  | .hbm, ⟨32, _⟩ => ⟨S6400000x2, .f32⟩
  | .hbm, ⟨33, _⟩ => ⟨S6400000x1, .f32⟩
  | .hbm, ⟨34, _⟩ => ⟨S6400000, .f32⟩
  | .hbm, ⟨35, _⟩ => ⟨S6400000, .f32⟩
  | .hbm, ⟨36, _⟩ => ⟨S6400000x1, .f32⟩
  | .hbm, ⟨37, _⟩ => ⟨S6400000, .f32⟩
  | .hbm, ⟨38, _⟩ => ⟨S6400000, .f32⟩
  | .hbm, ⟨39, _⟩ => ⟨S6400000, .f32⟩
  | .hbm, ⟨40, _⟩ => ⟨S6400000, .f32⟩
  | .hbm, ⟨41, _⟩ => ⟨S6400000x1, .f32⟩
  | .hbm, ⟨42, _⟩ => ⟨S6400000, .f32⟩
  | .hbm, ⟨43, _⟩ => ⟨S_, .f32⟩
  | .hbm, ⟨44, _⟩ => ⟨S6400000, .f32⟩
  | .hbm, ⟨45, _⟩ => ⟨S6400000, .f32⟩
  | .hbm, ⟨46, _⟩ => ⟨S6400000, .f32⟩
  | .hbm, ⟨47, _⟩ => ⟨S6400000x1, .f32⟩
  | .hbm, ⟨48, _⟩ => ⟨S6400000, .f32⟩
  | .hbm, ⟨49, _⟩ => ⟨S6400000, .f32⟩
  | .hbm, ⟨50, _⟩ => ⟨S6400000, .f32⟩
  | .hbm, ⟨51, _⟩ => ⟨S6400000, .f32⟩
  | .hbm, ⟨52, _⟩ => ⟨S6400000, .f32⟩
  | .hbm, ⟨53, _⟩ => ⟨S6400000, .f32⟩
  | .hbm, ⟨54, _⟩ => ⟨S_, .f32⟩
  | .hbm, ⟨55, _⟩ => ⟨S100000, .f32⟩
  | .hbm, ⟨56, _⟩ => ⟨S6400000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S6400000x1, .i32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  concatenates_S6400000x1_S6400000x1_S6400000x2_d1 : Shape.Concatenates [S6400000x1, S6400000x1] S6400000x2 1
  slices_S6400000x2_S6400000x1_0_0 : S6400000x2.Slices ![0, 0] S6400000x1
  shapeCasts_S6400000x1_S6400000 : S6400000x1.ShapeCasts S6400000
  slices_S6400000x2_S6400000x1_0_1 : S6400000x2.Slices ![0, 1] S6400000x1
  bcast_S_S100000 : S_.BroadcastsInDim S100000 (![] : Fin 0 → Fin S100000.rank)
  reducesTo_S100000_S_d0 : S100000.ReducesTo [0] S_
  h_S_ : 0 < S_.numel
  gather_S100000x4_S6400000x2_S6400000x2_1_0_n_n_01_1_12_wf : GatherDims.WF S100000x4 S6400000x2 S6400000x2 [1] [0] [] [0, 1] [] 1 ![1, 2]
  scatter_S100000_S6400000x1_S6400000_n_0_0_1_wf : ScatterDims.WF S100000 S6400000x1 S6400000 [] [0] [0] 1

variable [Facts₀]

def gather_S100000x4_S6400000x2_S6400000x2_1_0_n_n_01_1_12 : GatherDims S100000x4 S6400000x2 S6400000x2 where
  offsetDims := [1]
  collapsedSliceDims := [0]
  operandBatchingDims := []
  startIndicesBatchingDims := []
  startIndexMap := [0, 1]
  indexVectorDim := 1
  sliceSizes := ![1, 2]
  wf := gather_S100000x4_S6400000x2_S6400000x2_1_0_n_n_01_1_12_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.KTail.lean ====
/-
  The host lines that follow the call, read as ONE function of the call's result array and of the two index
  vectors (destination nodes, source nodes): the per-edge currents are the result array laid out flat; every
  node accumulates the currents of the edges that end at it and the NEGATED currents of the edges that leave
  it, in a single accumulation over both lists joined end to end; the answer is the mean of the squares of
  the node sums.
-/
import proofs.«181363_j38010460570136_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Tail

open Idealize.ShloMosaic Idealize.ShloMosaic.TcCoe Idealize.ShloMosaic.Tactic
open Idealize.SL Idealize.SL.Sem Idealize.ShloMosaic.StableHlo
open Idealize.ShloMosaic.Pipeline (Dat Cfg Window)
open Cert.KernelIdeal Cert.KernelIdeal.Gen

variable {F : FTy → Type} [FloatOps F]

/-- The flat list of per-edge currents: the [50000, 128] result array read row after row. -/
def flat (out : (⟨S50000x128, .f32⟩ : BufTy).Contents (Elt F)) : (⟨S6400000, .f32⟩ : BufTy).Contents (Elt F) :=
  shapeCast S6400000 out shapeCasts_S50000x128_S6400000

/-- Each node's signed sum: over the joined list (currents, then negated currents) at the joined node list
    (destinations, then sources), every entry added at the node it names. -/
def nodeSum (w : (⟨S6400000, .f32⟩ : BufTy).Contents (Elt F)) (dst src : (⟨S6400000, .i32⟩ : BufTy).Contents (Elt F)) :
    (⟨S100000, .f32⟩ : BufTy).Contents (Elt F) :=
  Host.scatterAdd scatter_S100000_S12800000x1_S12800000_n_0_0_1
    (broadcastInDim S100000 ![] bcast_S_S100000 (constant S_ .f32 0x00000000#32))
    (broadcastInDim S12800000x1 ![0] bcast_S12800000_S12800000x1_0
      (concatenate S12800000 0 [⟨S6400000, dst⟩, ⟨S6400000, src⟩] concatenates_S6400000_S6400000_S12800000_d0))
    (concatenate S12800000 0 [⟨S6400000, w⟩, ⟨S6400000, Host.negf w⟩] concatenates_S6400000_S6400000_S12800000_d0)

/-- The mean over the 100000 nodes of an array of per-node values: their sum from zero, divided by 100000. -/
def meanOf (sq : (⟨S100000, .f32⟩ : BufTy).Contents (Elt F)) : (⟨S_, .f32⟩ : BufTy).Contents (Elt F) :=
  Host.divf (Host.reduceAdd sq (constant S_ .f32 0x00000000#32) reducesTo_S100000_S_d0 h_S_) (constant S_ .f32 0x47C35000#32)

/-- The lines after the call: the mean of the squared node sums of the flat currents. -/
def tailOf (out : (⟨S50000x128, .f32⟩ : BufTy).Contents (Elt F)) (dst src : (⟨S6400000, .i32⟩ : BufTy).Contents (Elt F)) :
    (⟨S_, .f32⟩ : BufTy).Contents (Elt F) :=
  meanOf (mulf (nodeSum (flat out) dst src) (nodeSum (flat out) dst src))

variable (m : (ℓ : Loc nD τ sig) → Buf (Elt F) ℓ)

/-- The program's result buffer after the lines that follow the call is `tailOf` of the call's result array as
    the run leaves it and of the two index vectors as the lines before the call computed them. -/
theorem result_eq (c : Dev nD) :
    Pipeline.afterTail₀ cfgs (dats m) 0 (V0 m) [hostOps1] c main_v46
      = tailOf ((dats m 0 c).arrAt 5 cfg0.N) (V m c main_v3) (V m c main_v1) := by
  unfold Pipeline.afterTail₀
  show StableHlo.after hostOps1 _ (Proc.devRef .tc main_v46) = _
  after_results
  rw [show Pipeline.withArrays (cfgs 0).spec c (V0 m c) (fun w => (dats m 0 c).arrAt w (cfgs 0).N) (Proc.devRef .tc main_v36)
        = (dats m 0 c).arrAt 5 cfg0.N from Pipeline.withArrays_arr spec0 launch0.win.arr_inj c _ _ 5,
    show Pipeline.withArrays (cfgs 0).spec c (V0 m c) (fun w => (dats m 0 c).arrAt w (cfgs 0).N) (Proc.devRef .tc main_v3)
        = V m c main_v3 from Pipeline.withArrays_of_ne _ c (V0 m c) _ main_v3 (by exact (by decide : ∀ w, Pipeline.arrRef spec0 w ≠ main_v3)),
    show Pipeline.withArrays (cfgs 0).spec c (V0 m c) (fun w => (dats m 0 c).arrAt w (cfgs 0).N) (Proc.devRef .tc main_v1)
        = V m c main_v1 from Pipeline.withArrays_of_ne _ c (V0 m c) _ main_v1 (by exact (by decide : ∀ w, Pipeline.arrRef spec0 w ≠ main_v1))]
  rfl

end Cert.KernelIdeal.Tail
end
-- ==== Proof.KBlocks.lean ====
/-
  The call's result array after the run. The grid has 25 points; point t stages rows 2000·t … 2000·t + 1999 of
  each of the five operand arrays and of the result array (all [50000, 128], every window moving with the point
  along the rows, the 128 lanes whole), and the body stores, entry by entry, one edge's weighted current
  computed from the five staged entries. So what point t writes back is block t of ONE whole-array function
  of the five operand arrays, and the 25 blocks cover the 50000 rows: the result array ends at that function.
-/
import proofs.«181363_j38010460570136_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.ShloMosaic.Tactic
open Idealize.SL Idealize.SL.Sem Idealize.ShloMosaic.StableHlo
open Idealize.ShloMosaic.Pipeline (Dat Cfg Window)
open Cert.KernelIdeal Cert.KernelIdeal.Gen

variable {F : FTy → Type} [FloatOps F]

/-- One edge's weighted current from five numbers: the length of the difference vector (a, b), divided by the
    length of (r + ε, x), times the weight p; ε is the f32 word nearest 1e-6. -/
def cur (a b r x p : F .f32) : F .f32 :=
  FloatOps.mulf
    (FloatOps.divf (FloatOps.sqrt (FloatOps.addf (FloatOps.mulf a a) (FloatOps.mulf b b)))
      (FloatOps.sqrt (FloatOps.addf
        (FloatOps.mulf (FloatOps.addf r (Scalar.ofBits .f32 0x358637BD#32)) (FloatOps.addf r (Scalar.ofBits .f32 0x358637BD#32)))
        (FloatOps.mulf x x))))
    p

/-- The whole-array function: entry i of the result is the current of entry i of the five operands. -/
def G (a0 a1 a2 a3 a4 : S50000x128.Idx → Elt F .f32) : S50000x128.Idx → Elt F .f32 :=
  fun i => cur (a0 i) (a1 i) (a2 i) (a3 i) (a4 i)

theorem hz : (![0, 0] : Fin 2 → Nat) = fun _ => 0 := funext fun a => by fin_cases a <;> rfl

/-- The body's stored value is, entry by entry, the current of its five loaded blocks. -/
theorem pay_eq (x0 x1 x2 x3 x4 : Vec F S2000x128 .f32) :
    k0_pay1 x0 x1 x2 x3 x4 = fun j => cur (x0 j) (x1 j) (x2 j) (x3 j) (x4 j) := by
  unfold k0_pay1
  simp only [shapeCast_self]
  rfl

/-- Over the 25 grid points: every operand window sits at the result window's block, whose row-block number
    is at most 24 and whose lane-block number is 0. -/
theorem idx_facts : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = win0_5.index t (1 : Fin 2)
    ∧ win0_2.index t (0 : Fin 2) = win0_5.index t (0 : Fin 2) ∧ win0_2.index t (1 : Fin 2) = win0_5.index t (1 : Fin 2)
    ∧ win0_3.index t (0 : Fin 2) = win0_5.index t (0 : Fin 2) ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_5.index t (0 : Fin 2) ≤ 24 ∧ win0_5.index t (1 : Fin 2) = 0 :=
  (by decide +kernel : ∀ t : Fin grid0.N, _)

/-- Every row block 0 … 24 is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

variable (m : (ℓ : Loc nD τ sig) → Buf (Elt F) ℓ)

/-- An operand window's block at a point, read at a position of the block, is the operand array at the
    position's place in the array. -/
theorem iblk0 (c : Dev nD) (t : Fin cfg0.N) (j : ((win0 5).xblock (grid0.coords t)).Idx) :
    iblk m c 0 t j = V m c main_v25 (((cfg0.win 0).blk t).view.emb j) := rfl
theorem iblk1 (c : Dev nD) (t : Fin cfg0.N) (j : ((win0 5).xblock (grid0.coords t)).Idx) :
    iblk m c 1 t j = V m c main_v28 (((cfg0.win 1).blk t).view.emb j) := rfl
theorem iblk2 (c : Dev nD) (t : Fin cfg0.N) (j : ((win0 5).xblock (grid0.coords t)).Idx) :
    iblk m c 2 t j = V m c main_v31 (((cfg0.win 2).blk t).view.emb j) := rfl
theorem iblk3 (c : Dev nD) (t : Fin cfg0.N) (j : ((win0 5).xblock (grid0.coords t)).Idx) :
    iblk m c 3 t j = V m c main_v34 (((cfg0.win 3).blk t).view.emb j) := rfl
theorem iblk4 (c : Dev nD) (t : Fin cfg0.N) (j : ((win0 5).xblock (grid0.coords t)).Idx) :
    iblk m c 4 t j = V m c main_v35 (((cfg0.win 4).blk t).view.emb j) := rfl

/-- The result window's blocks are whole (no block overhangs the array): what is written back is what the body left. -/
theorem cut_whole (t : Fin cfg0.N) (X : (win0 5).block.Idx → Elt F .f32) (j : ((win0 5).xblock (grid0.coords t)).Idx) :
    (win0 5).cut (grid0.coords t) X j = X j := rfl

/-- Block t of a whole-array function, read at a position of the block, is the function at the position's place. -/
theorem read_blk (t : Fin cfg0.N) (A : S50000x128.Idx → Elt F .f32) (j : ((win0 5).xblock (grid0.coords t)).Idx) :
    View.read (Elt F) ((View.whole main_v36).slice ((win0 5).rect t)) A j = A (((cfg0.win 5).blk t).view.emb j) := rfl

/-- At every point each operand window's block sits where the result window's does. -/
theorem emb_eq (t : Fin cfg0.N) (j : ((win0 5).xblock (grid0.coords t)).Idx) :
    ((cfg0.win 0).blk t).view.emb j = ((cfg0.win 5).blk t).view.emb j
    ∧ ((cfg0.win 1).blk t).view.emb j = ((cfg0.win 5).blk t).view.emb j
    ∧ ((cfg0.win 2).blk t).view.emb j = ((cfg0.win 5).blk t).view.emb j
    ∧ ((cfg0.win 3).blk t).view.emb j = ((cfg0.win 5).blk t).view.emb j
    ∧ ((cfg0.win 4).blk t).view.emb j = ((cfg0.win 5).blk t).view.emb j := by
  obtain ⟨e00, e01, e10, e11, e20, e21, e30, e31, e40, e41, e5, e6⟩ := idx_facts t
  refine ⟨?_, ?_, ?_, ?_, ?_⟩
  · funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * (j 1).val = win0_5.index t (1 : Fin 2) * 128 + 1 * (j 1).val; omega
  · funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * (j 1).val = win0_5.index t (1 : Fin 2) * 128 + 1 * (j 1).val; omega
  · funext a; apply Fin.ext
    match a with
    | ⟨0, _⟩ => show win0_2.index t (0 : Fin 2) * 2000 + 1 * (j 0).val = win0_5.index t (0 : Fin 2) * 2000 + 1 * (j 0).val; omega
    | ⟨1, _⟩ => show win0_2.index t (1 : Fin 2) * 128 + 1 * (j 1).val = win0_5.index t (1 : Fin 2) * 128 + 1 * (j 1).val; omega
  · funext a; apply Fin.ext
    match a with
    | ⟨0, _⟩ => show win0_3.index t (0 : Fin 2) * 2000 + 1 * (j 0).val = win0_5.index t (0 : Fin 2) * 2000 + 1 * (j 0).val; omega
    | ⟨1, _⟩ => show win0_3.index t (1 : Fin 2) * 128 + 1 * (j 1).val = win0_5.index t (1 : Fin 2) * 128 + 1 * (j 1).val; omega
  · funext a; apply Fin.ext
    match a with
    | ⟨0, _⟩ => show win0_4.index t (0 : Fin 2) * 2000 + 1 * (j 0).val = win0_5.index t (0 : Fin 2) * 2000 + 1 * (j 0).val; omega
    | ⟨1, _⟩ => show win0_4.index t (1 : Fin 2) * 128 + 1 * (j 1).val = win0_5.index t (1 : Fin 2) * 128 + 1 * (j 1).val; omega

/-- What point t writes back is block t of `G` of the five operand arrays as the call finds them. -/
theorem flushed_eq (c : Dev nD) (t : Fin cfg0.N) :
    (dats m 0 c).flushed 5 t = ((cfg0.win 5).blk t).view.read (Elt F)
      (G (V m c main_v25) (V m c main_v28) (V m c main_v31) (V m c main_v34) (V m c main_v35)) := by
  show (cfg0.win 5).cut (grid0.coords t) ((dats m 0 c).after 5 t) = _
  rw [after0_5]
  unfold out0_5
  rw [View.canon_unit_zero hz]
  simp only [View.ld_unit_zero (S := S2000x128) hz]
  rw [pay_eq]
  funext j
  obtain ⟨h0, h1, h2, h3, h4⟩ := emb_eq t j
  refine (cut_whole t _ j).trans ?_
  refine Eq.trans ?_ (read_blk t _ j).symm
  unfold G
  have e0 : iblk m c 0 t j = V m c main_v25 (((cfg0.win 5).blk t).view.emb j) := (iblk0 m c t j).trans (congrArg (V m c main_v25) h0)
  have e1 : iblk m c 1 t j = V m c main_v28 (((cfg0.win 5).blk t).view.emb j) := (iblk1 m c t j).trans (congrArg (V m c main_v28) h1)
  have e2 : iblk m c 2 t j = V m c main_v31 (((cfg0.win 5).blk t).view.emb j) := (iblk2 m c t j).trans (congrArg (V m c main_v31) h2)
  have e3 : iblk m c 3 t j = V m c main_v34 (((cfg0.win 5).blk t).view.emb j) := (iblk3 m c t j).trans (congrArg (V m c main_v34) h3)
  have e4 : iblk m c 4 t j = V m c main_v35 (((cfg0.win 5).blk t).view.emb j) := (iblk4 m c t j).trans (congrArg (V m c main_v35) h4)
  exact congr (congr (congr (congr (congrArg cur e0) e1) e2) e3) e4

/-- An index of the result array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v36).slice (win0_5.rect t)).set ↔ _
  rw [View.set_slice_whole, Rect.mem_set_unit]
  exact Iff.rfl

/-- Row r of the result array lies in the block of the point whose row-block number is r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the run: `G` of the five operand arrays as the call finds them. -/
theorem final (c : Dev nD) : (dats m 0 c).arrAt 5 cfg0.N
    = G (V m c main_v25) (V m c main_v28) (V m c main_v31) (V m c main_v34) (V m c main_v35) :=
  (dats m 0 c).arrAt_eq_of_cover 5 _ (fun t _ => flushed_eq m c t) cover

end Cert.KernelIdeal.Blocks
end
-- ==== Proof.KPrefix.lean ====
/-
  The arrays the call's windows stage, and the two index vectors, as the host lines before the call leave them,
  each named by the stage of the reference program that computes the same thing from the same arguments: both
  programs begin with the same lines (the two rows of the edge list, the gathered node features and their
  difference, the columns of the edge parameters), so the terms agree by unfolding. The kernel then lays each
  flat vector of 6400000 entries out as [50000, 128].
-/
import proofs.«181363_j38010460570136_2_alg».proof.Proof.Gen.KernelIdeal.Frame
import proofs.«181363_j38010460570136_2_alg».proof.Proof.Gen.ReferenceIdeal.Read
import Idealize.ShloMosaic.Lib.StableHlo.Run

set_option maxRecDepth 16384

noncomputable section

namespace Cert.KernelIdeal.Prefix

open Idealize.ShloMosaic Idealize.ShloMosaic.TcCoe Idealize.ShloMosaic.Tactic
open Idealize.SL Idealize.SL.Sem Idealize.ShloMosaic.StableHlo
open Idealize.ShloMosaic.Pipeline (Dat Cfg Window)
open Cert.KernelIdeal Cert.KernelIdeal.Gen

variable {F : FTy → Type} [FloatOps F]

open Cert.ReferenceIdeal.Read

variable (m : (ℓ : Loc nD τ sig) → Buf (Elt F) ℓ)

/-- A flat vector of 6400000 entries laid out as 50000 rows of 128. -/
def rows (v : (⟨S6400000, .f32⟩ : BufTy).Contents (Elt F)) : (⟨S50000x128, .f32⟩ : BufTy).Contents (Elt F) :=
  shapeCast S50000x128 v shapeCasts_S6400000_S50000x128

/-- The destination nodes: row 1 of the edge list. -/
theorem V_dst (c : Dev nD) : V m c main_v3 = val_main_v3 (F := F) (m ((c : Thread nD τ).loc main_arg1)) := by
  show StableHlo.after hostOps0 (fun b => m (c, b)) (Proc.devRef .tc main_v3) = _
  after_results; rfl

/-- The source nodes: row 0 of the edge list. -/
theorem V_src (c : Dev nD) : V m c main_v1 = val_main_v1 (F := F) (m ((c : Thread nD τ).loc main_arg1)) := by
  show StableHlo.after hostOps0 (fun b => m (c, b)) (Proc.devRef .tc main_v1) = _
  after_results; rfl

set_option maxHeartbeats 8000000 in
/-- Window 0: the first component of the feature difference along each edge. -/
theorem V_w0 (c : Dev nD) : V m c main_v25
    = rows (val_main_v24 (F := F) (m ((c : Thread nD τ).loc main_arg0)) (m ((c : Thread nD τ).loc main_arg1))) := by
  show StableHlo.after hostOps0 (fun b => m (c, b)) (Proc.devRef .tc main_v25) = _
  after_results; rfl

set_option maxHeartbeats 8000000 in
/-- Window 1: the second component of the feature difference along each edge. -/
theorem V_w1 (c : Dev nD) : V m c main_v28
    = rows (val_main_v27 (F := F) (m ((c : Thread nD τ).loc main_arg0)) (m ((c : Thread nD τ).loc main_arg1))) := by
  show StableHlo.after hostOps0 (fun b => m (c, b)) (Proc.devRef .tc main_v28) = _
  after_results; rfl

set_option maxHeartbeats 8000000 in
/-- Window 2: column 0 of the edge parameters. -/
theorem V_w2 (c : Dev nD) : V m c main_v31 = rows (val_main_v32 (F := F) (m ((c : Thread nD τ).loc main_arg3))) := by
  show StableHlo.after hostOps0 (fun b => m (c, b)) (Proc.devRef .tc main_v31) = _
  after_results; rfl

set_option maxHeartbeats 8000000 in
/-- Window 3: column 1 of the edge parameters. -/
theorem V_w3 (c : Dev nD) : V m c main_v34 = rows (val_main_v37 (F := F) (m ((c : Thread nD τ).loc main_arg3))) := by
  show StableHlo.after hostOps0 (fun b => m (c, b)) (Proc.devRef .tc main_v34) = _
  after_results; rfl

set_option maxHeartbeats 8000000 in
/-- Window 4: the edge weights. -/
theorem V_w4 (c : Dev nD) : V m c main_v35 = rows (m ((c : Thread nD τ).loc main_arg2)) := by
  show StableHlo.after hostOps0 (fun b => m (c, b)) (Proc.devRef .tc main_v35) = _
  after_results; rfl

end Cert.KernelIdeal.Prefix
end
-- ==== Proof.KRun.lean ====
/-
  The kernel program's run, read: every weakly fair execution ends with the result buffer at one function of the
  four argument arrays — the lines before the call (as the reference's own stages, which compute the same
  things), the call's result array (one edge's weighted current per entry), the lines after the call (the mean of
  the squared signed node sums) — and with the arguments unchanged.
-/
import proofs.«181363_j38010460570136_2_alg».proof.Proof.KTail
import proofs.«181363_j38010460570136_2_alg».proof.Proof.KBlocks
import proofs.«181363_j38010460570136_2_alg».proof.Proof.KPrefix

set_option maxRecDepth 16384

noncomputable section

namespace Cert.KernelIdeal.Result

open Idealize.ShloMosaic Idealize.ShloMosaic.TcCoe Idealize.ShloMosaic.Tactic
open Idealize.SL Idealize.SL.Sem Idealize.ShloMosaic.StableHlo
open Idealize.ShloMosaic.Pipeline (Dat Cfg Window)
open Cert.KernelIdeal Cert.KernelIdeal.Gen

variable {F : FTy → Type} [FloatOps F]

open Cert.ReferenceIdeal.Read

/-- The kernel program's result as a function of the four argument arrays. -/
def value (x0 : (⟨S100000x4, .f32⟩ : BufTy).Contents (Elt F)) (x1 : (⟨S2x6400000, .i32⟩ : BufTy).Contents (Elt F))
    (x2 : (⟨S6400000, .f32⟩ : BufTy).Contents (Elt F)) (x3 : (⟨S6400000x2, .f32⟩ : BufTy).Contents (Elt F)) :
    (⟨S_, .f32⟩ : BufTy).Contents (Elt F) :=
  Tail.tailOf
    (Blocks.G (Prefix.rows (val_main_v24 (F := F) x0 x1)) (Prefix.rows (val_main_v27 (F := F) x0 x1))
      (Prefix.rows (val_main_v32 (F := F) x3)) (Prefix.rows (val_main_v37 (F := F) x3)) (Prefix.rows x2))
    (val_main_v3 (F := F) x1) (val_main_v1 (F := F) x1)

variable (m : (ℓ : Loc nD τ sig) → Buf (Elt F) ℓ) (ρ : Dev nD → PrngReg)

/-- The result buffer after the whole program, as `value` of the arguments' launch contents. -/
theorem result_value (c : Dev nD) :
    Pipeline.afterTail₀ cfgs (dats m) 0 (V0 m) [hostOps1] c main_v46
      = value (m ((c : Thread nD τ).loc main_arg0)) (m ((c : Thread nD τ).loc main_arg1))
          (m ((c : Thread nD τ).loc main_arg2)) (m ((c : Thread nD τ).loc main_arg3)) := by
  rw [Tail.result_eq, Blocks.final, Prefix.V_dst, Prefix.V_src, Prefix.V_w0, Prefix.V_w1, Prefix.V_w2, Prefix.V_w3, Prefix.V_w4]
  rfl

/-- Every weakly fair execution of the kernel program terminates with the result at `value` of the arguments and
    the arguments unchanged. -/
theorem run : θ_run defs (onTc (τ := τ) (main (F := F))) ⟨m, fun _ => 0, ρ⟩ fun r => ∀ c : Dev nD,
      r.2.mem ((c.tc : Thread nD τ).loc main_v46)
        = value (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v46 (Pipeline.mem_restRefs_of main_v46 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result
end
-- ==== Proof.LibScatterConcat.lean ====
/-
  One accumulating scatter of a concatenation is the two accumulating scatters of the pieces.

  The operand is a vector of 100000 extended reals. Updates are scalars (no window axes; the
  operand's one axis is inserted), each update's start index is one 32-bit word read SIGNED off a
  column of scatter indices, and an update whose start index falls outside the operand is dropped.
  So the sum that lands on operand element i is the sum of the updates whose index word, read
  signed, is i. When the updates and the index words are each the concatenation of two halves, the
  set of update positions is the disjoint union of the two halves' positions, and the sum splits.
-/
import Idealize.ShloMosaic.PureOps.Ideal
import Idealize.ShloMosaic.Lib.Pipeline.Value
import Idealize.ShloMosaic.Lib.ValueIdx

noncomputable section

open scoped BigOperators

namespace Cert.LibScatterConcat

open Idealize.ShloMosaic Idealize.ShloMosaic.ValueIdx

/-! ## A scalar scatter into a vector, its indices a column: where an update lands -/

section Column
variable {n m : Nat}

/-- The dimension numbers of a scatter of m scalar updates into a vector of n elements, the
    scatter indices an m-by-1 column (one index word per update). -/
abbrev colDims (wf : ScatterDims.WF ⟨1, ![n]⟩ ⟨2, ![m, 1]⟩ ⟨1, ![m]⟩ [] [0] [0] 1) :
    ScatterDims ⟨1, ![n]⟩ ⟨2, ![m, 1]⟩ ⟨1, ![m]⟩ :=
  { updateWindowDims := [], insertedWindowDims := [0], scatterDimsToOperandDims := [0], indexVectorDim := 1, wf := wf }

/-- The coordinate of a rank-1 index is below the extent, written as the extent itself. -/
theorem idx1_lt {k : Nat} (j : (⟨1, ![k]⟩ : Shape).Idx) : (j 0).val < k := (j 0).isLt

/-- The start index of update e, when the index column is the broadcast of a vector of words a:
    the word a e read signed. -/
theorem start_col (wf : ScatterDims.WF ⟨1, ![n]⟩ ⟨2, ![m, 1]⟩ ⟨1, ![m]⟩ [] [0] [0] 1)
    (hb : (⟨1, ![m]⟩ : Shape).BroadcastsInDim ⟨2, ![m, 1]⟩ (![0] : Fin 1 → Fin 2))
    (a : (⟨1, ![m]⟩ : Shape).Idx → BitVec 32) (e : (⟨1, ![m]⟩ : Shape).Idx) (ax : Fin 1) :
    (colDims wf).start e (broadcastInDim ⟨2, ![m, 1]⟩ ![0] hb a) ax = (a e).toInt := by
  obtain rfl : ax = 0 := Subsingleton.elim _ _
  unfold ScatterDims.start
  rw [dif_pos (show (0 : Fin 1) ∈ (colDims wf).scatterDimsToOperandDims from List.mem_singleton.mpr rfl)]
  congr 1
  refine broadcastInDim_apply _ hb a _ e fun bx => ?_
  obtain rfl : bx = 0 := Subsingleton.elim _ _
  have hsi : (((colDims wf).siIdx e ⟨List.idxOf (0 : Fin 1) (colDims wf).scatterDimsToOperandDims,
      List.idxOf_lt_length_iff.2 (List.mem_singleton.mpr rfl)⟩ ((![0] : Fin 1 → Fin 2) 0)).val : Nat) = (e 0).val := rfl
  rw [hsi]
  split
  · next h1 =>
    have h1' : m = 1 := h1
    have := idx1_lt e
    omega
  · rfl

/-- Update e has no window coordinate: the operand's one axis is inserted, none is kept. -/
theorem window_col (wf : ScatterDims.WF ⟨1, ![n]⟩ ⟨2, ![m, 1]⟩ ⟨1, ![m]⟩ [] [0] [0] 1)
    (e : (⟨1, ![m]⟩ : Shape).Idx) (ax : Fin 1) : (colDims wf).window e ax = 0 := by
  obtain rfl : ax = 0 := Subsingleton.elim _ _
  unfold ScatterDims.window
  rw [dif_neg (by simp [ScatterDims.sKept, Shape.kept])]

/-- WHERE AN UPDATE LANDS: update e lands on operand element i exactly when its index word, read
    signed, is i's coordinate (an index word outside the operand lands nowhere). -/
theorem resultIdx?_col_eq_some_iff (wf : ScatterDims.WF ⟨1, ![n]⟩ ⟨2, ![m, 1]⟩ ⟨1, ![m]⟩ [] [0] [0] 1)
    (hb : (⟨1, ![m]⟩ : Shape).BroadcastsInDim ⟨2, ![m, 1]⟩ (![0] : Fin 1 → Fin 2))
    (a : (⟨1, ![m]⟩ : Shape).Idx → BitVec 32) (e : (⟨1, ![m]⟩ : Shape).Idx) (i : (⟨1, ![n]⟩ : Shape).Idx) :
    (colDims wf).resultIdx? e (broadcastInDim ⟨2, ![m, 1]⟩ ![0] hb a) = some i ↔ (a e).toInt = ((i 0).val : Int) := by
  unfold ScatterDims.resultIdx?
  split
  · next h =>
    rw [Option.some_inj]
    constructor
    · intro hf
      have h0 : ((colDims wf).start e (broadcastInDim ⟨2, ![m, 1]⟩ ![0] hb a) 0 + ((colDims wf).window e 0 : Nat)).toNat = (i 0).val :=
        congrArg (fun f : (⟨1, ![n]⟩ : Shape).Idx => (f 0).val) hf
      rw [start_col, window_col] at h0
      have hh := (h 0).1
      rw [start_col, window_col] at hh
      omega
    · intro hv
      funext ax
      obtain rfl : ax = 0 := Subsingleton.elim _ _
      apply Fin.ext
      show ((colDims wf).start e (broadcastInDim ⟨2, ![m, 1]⟩ ![0] hb a) 0 + ((colDims wf).window e 0 : Nat)).toNat = (i 0).val
      rw [start_col, window_col, hv]
      omega
  · next h =>
    constructor
    · intro hf; exact absurd hf (by simp)
    · intro hv
      exfalso; apply h
      intro ax
      rw [start_col, window_col, hv]
      obtain rfl : ax = 0 := Subsingleton.elim _ _
      have := idx1_lt i
      constructor
      · omega
      · show ((i 0).val : Int) + ((0 : Nat) : Int) < ((n : Nat) : Int)
        omega

end Column

/-! ## A filtered sum over a disjoint union -/

/-- A filtered sum over an index set that is the disjoint union of two copies of another splits
    into the two filtered sums over the copies. -/
theorem sum_filter_sumEquiv {ι κ M : Type*} [Fintype ι] [Fintype κ] [AddCommMonoid M] (σ : κ ⊕ κ ≃ ι)
    (P : ι → Prop) [DecidablePred P] (W : ι → M) (Pl Pr : κ → Prop) [DecidablePred Pl] [DecidablePred Pr] (wl wr : κ → M)
    (hPl : ∀ e, P (σ (Sum.inl e)) ↔ Pl e) (hwl : ∀ e, W (σ (Sum.inl e)) = wl e)
    (hPr : ∀ e, P (σ (Sum.inr e)) ↔ Pr e) (hwr : ∀ e, W (σ (Sum.inr e)) = wr e) :
    ∑ j ∈ Finset.univ.filter P, W j = ∑ e ∈ Finset.univ.filter Pl, wl e + ∑ e ∈ Finset.univ.filter Pr, wr e := by
  rw [Finset.sum_filter, Finset.sum_filter, Finset.sum_filter, ← Equiv.sum_comp σ, Fintype.sum_sum_type]
  congr 1
  · refine Finset.sum_congr rfl fun e _ => ?_
    rw [hwl e]; exact if_congr (hPl e) rfl rfl
  · refine Finset.sum_congr rfl fun e _ => ?_
    rw [hwr e]; exact if_congr (hPr e) rfl rfl

/-! ## The shapes of the statement -/

/-- The operand: one element per node. -/
abbrev N : Shape := ⟨1, ![100000]⟩
/-- The concatenated updates, and the concatenated index words. -/
abbrev U2 : Shape := ⟨1, ![12800000]⟩
/-- The concatenated index words as a column. -/
abbrev I2 : Shape := ⟨2, ![12800000, 1]⟩
/-- One half of the updates, and of the index words. -/
abbrev U1 : Shape := ⟨1, ![6400000]⟩
/-- One half's index words as a column. -/
abbrev I1 : Shape := ⟨2, ![6400000, 1]⟩

/-- The scatter of the 12800000 concatenated updates into the operand. -/
abbrev d2 (wf2 : ScatterDims.WF N I2 U2 [] [0] [0] 1) : ScatterDims N I2 U2 :=
  { updateWindowDims := [], insertedWindowDims := [0], scatterDimsToOperandDims := [0], indexVectorDim := 1, wf := wf2 }
/-- The scatter of one half's 6400000 updates into the operand. -/
abbrev d1 (wf1 : ScatterDims.WF N I1 U1 [] [0] [0] 1) : ScatterDims N I1 U1 :=
  { updateWindowDims := [], insertedWindowDims := [0], scatterDimsToOperandDims := [0], indexVectorDim := 1, wf := wf1 }

/-- The positions of the concatenation are the first half's positions followed by the second
    half's: position c below 6400000 is position c of the first half, position c at or above it is
    position c - 6400000 of the second. -/
def halves : U1.Idx ⊕ U1.Idx ≃ U2.Idx where
  toFun
    | .inl e => ix1 ⟨(e 0).val, by have := idx1_lt e; omega⟩
    | .inr e => ix1 ⟨(e 0).val + 6400000, by have := idx1_lt e; omega⟩
  invFun j :=
    if h : (j 0).val < 6400000 then .inl (ix1 ⟨(j 0).val, h⟩)
    else .inr (ix1 ⟨(j 0).val - 6400000, by have := idx1_lt j; omega⟩)
  left_inv s := by
    rcases s with e | e
    · have h : (e 0).val < 6400000 := idx1_lt e
      show (if h : (e 0).val < 6400000 then _ else _) = _
      rw [dif_pos h]
      congr 1
      funext ax
      obtain rfl : ax = 0 := Subsingleton.elim _ _
      rfl
    · have h : ¬ (e 0).val + 6400000 < 6400000 := by omega
      show (if h : (e 0).val + 6400000 < 6400000 then _ else _) = _
      rw [dif_neg h]
      congr 1
      funext ax
      obtain rfl : ax = 0 := Subsingleton.elim _ _
      apply Fin.ext
      show (e 0).val + 6400000 - 6400000 = (e 0).val
      omega
  right_inv j := by
    by_cases h : (j 0).val < 6400000
    · dsimp only
      rw [dif_pos h]
      funext ax
      obtain rfl : ax = 0 := Subsingleton.elim _ _
      rfl
    · dsimp only
      rw [dif_neg h]
      funext ax
      obtain rfl : ax = 0 := Subsingleton.elim _ _
      apply Fin.ext
      show (j 0).val - 6400000 + 6400000 = (j 0).val
      omega

/-- The concatenation of two halves read at a position of the first half is the first half there. -/
theorem concat_halves_inl {α : Type} (hc : Shape.Concatenates [U1, U1] U2 0) (p q : U1.Idx → α) (e : U1.Idx) :
    concatenate U2 0 [⟨U1, p⟩, ⟨U1, q⟩] hc (halves (Sum.inl e)) = p e := by
  refine concatenate_pair_apply_left 0 p q hc _ rfl e fun bx => ?_
  obtain rfl : bx = 0 := Subsingleton.elim _ _
  rfl

/-- The concatenation of two halves read at a position of the second half is the second half there. -/
theorem concat_halves_inr {α : Type} (hc : Shape.Concatenates [U1, U1] U2 0) (p q : U1.Idx → α) (e : U1.Idx) :
    concatenate U2 0 [⟨U1, p⟩, ⟨U1, q⟩] hc (halves (Sum.inr e)) = q e := by
  refine concatenate_pair_apply_right 0 p q hc _ rfl rfl e (fun bx hbx => ?_) ?_
  · obtain rfl : bx = 0 := Subsingleton.elim _ _
    exact absurd rfl hbx
  · rfl

/-! ## The statement -/

/-- Update e of one half lands on operand element i exactly when its index word, read signed, is
    i's coordinate. -/
theorem resultIdx?_d1_eq_some_iff (wf1 : ScatterDims.WF N I1 U1 [] [0] [0] 1)
    (hb1 : U1.BroadcastsInDim I1 (![0] : Fin 1 → Fin 2)) (a : U1.Idx → BitVec 32) (e : U1.Idx) (i : N.Idx) :
    (d1 wf1).resultIdx? e (broadcastInDim I1 ![0] hb1 a) = some i ↔ (a e).toInt = ((i 0).val : Int) :=
  resultIdx?_col_eq_some_iff wf1 hb1 a e i

/-- Update j of the concatenation lands on operand element i exactly when its index word, read
    signed, is i's coordinate. -/
theorem resultIdx?_d2_eq_some_iff (wf2 : ScatterDims.WF N I2 U2 [] [0] [0] 1)
    (hb2 : U2.BroadcastsInDim I2 (![0] : Fin 1 → Fin 2)) (a : U2.Idx → BitVec 32) (j : U2.Idx) (i : N.Idx) :
    (d2 wf2).resultIdx? j (broadcastInDim I2 ![0] hb2 a) = some i ↔ (a j).toInt = ((i 0).val : Int) :=
  resultIdx?_col_eq_some_iff wf2 hb2 a j i

/-- ONE SCATTER OF THE CONCATENATION IS THE TWO SCATTERS OF THE HALVES. Accumulating the
    12800000 updates concat(u, v) at the index words concat(a, b) (as a column) into x gives, at
    operand element i, x i plus the sum of the u e whose word a e lands on i plus the sum of the v e
    whose word b e lands on i: the two sums the scatters of the halves add. -/
theorem scatterAdd_concat (wf1 : ScatterDims.WF N I1 U1 [] [0] [0] 1) (wf2 : ScatterDims.WF N I2 U2 [] [0] [0] 1)
    (hc : Shape.Concatenates [U1, U1] U2 0)
    (hb2 : U2.BroadcastsInDim I2 (![0] : Fin 1 → Fin 2)) (hb1 : U1.BroadcastsInDim I1 (![0] : Fin 1 → Fin 2))
    (x : N.Idx → EReal) (a b : U1.Idx → BitVec 32) (u v : U1.Idx → EReal) (i : N.Idx) :
    Ideal.hostScatterAdd (d2 wf2) x (broadcastInDim I2 ![0] hb2 (concatenate U2 0 [⟨U1, a⟩, ⟨U1, b⟩] hc))
        (concatenate U2 0 [⟨U1, u⟩, ⟨U1, v⟩] hc) i
      = x i + ((∑ e ∈ Finset.univ.filter (fun e => (d1 wf1).resultIdx? e (broadcastInDim I1 ![0] hb1 a) = some i), u e)
             + (∑ e ∈ Finset.univ.filter (fun e => (d1 wf1).resultIdx? e (broadcastInDim I1 ![0] hb1 b) = some i), v e)) := by
  unfold Ideal.hostScatterAdd
  refine congrArg (fun t => x i + t) ?_
  refine sum_filter_sumEquiv halves _ _ _ _ u v (fun e => ?_) (fun e => concat_halves_inl hc u v e)
    (fun e => ?_) (fun e => concat_halves_inr hc u v e)
  · rw [resultIdx?_d2_eq_some_iff, resultIdx?_d1_eq_some_iff, concat_halves_inl]
  · rw [resultIdx?_d2_eq_some_iff, resultIdx?_d1_eq_some_iff, concat_halves_inr]

end Cert.LibScatterConcat

end
-- ==== Proof.LibSignedSquare.lean ====
import Mathlib.Data.EReal.Operations
import Mathlib.Algebra.BigOperators.Group.Finset.Basic

/-!
# Squares of signed sums on the extended reals

On the extended reals the sum of the two infinities is `⊤ + ⊥ = ⊥`, so negation does not
distribute over a sum that holds both infinities: `-(⊤ + ⊥) = ⊤` while `-⊤ + -⊥ = ⊥`.
Hence `A + ∑ (-w e)` and `A - ∑ w e` may differ.  They differ only when both are infinite,
and then their squares are both `⊤`.  This file proves that the squares always agree.
-/

namespace Cert.LibSignedSquare

open scoped BigOperators

/-- Negation distributes over a sum of two extended reals, except when the two summands are the
two opposite infinities; in that exceptional case the sum and the sum of the negations are both
`⊥` (because `⊤ + ⊥ = ⊥ + ⊤ = ⊥`). -/
theorem neg_add_or (x y : EReal) :
    -x + -y = -(x + y) ∨ (x + y = ⊥ ∧ -x + -y = ⊥) := by
  by_cases h1 : x ≠ ⊥ ∨ y ≠ ⊤
  · by_cases h2 : x ≠ ⊤ ∨ y ≠ ⊥
    · exact Or.inl (EReal.neg_add h1 h2).symm
    · -- here `x = ⊤` and `y = ⊥`
      simp only [not_or, ne_eq, not_not] at h2
      obtain ⟨rfl, rfl⟩ := h2
      refine Or.inr ⟨EReal.add_bot _, ?_⟩
      rw [EReal.neg_top]
      exact EReal.bot_add _
  · -- here `x = ⊥` and `y = ⊤`
    simp only [not_or, ne_eq, not_not] at h1
    obtain ⟨rfl, rfl⟩ := h1
    refine Or.inr ⟨EReal.bot_add _, ?_⟩
    rw [EReal.neg_top]
    exact EReal.add_bot _

/-- For a finite sum of extended reals, either the sum of the negations is the negation of the
sum, or the sum and the sum of the negations are both `⊥`.  (Induction on the index set: once
both partial sums are `⊥` they stay `⊥`, since `x + ⊥ = ⊥`; before that, each new summand
either keeps the negation in step or sends both sums to `⊥`.) -/
theorem sum_neg_or {ι : Type*} (s : Finset ι) (w : ι → EReal) :
    (∑ e ∈ s, -w e = -(∑ e ∈ s, w e)) ∨ (∑ e ∈ s, w e = ⊥ ∧ ∑ e ∈ s, -w e = ⊥) := by
  classical
  induction s using Finset.induction_on with
  | empty => exact Or.inl (by simp)
  | insert a s ha ih =>
    rw [Finset.sum_insert ha, Finset.sum_insert ha]
    rcases ih with ih | ⟨h1, h2⟩
    · rw [ih]
      exact neg_add_or (w a) (∑ e ∈ s, w e)
    · rw [h1, h2]
      exact Or.inr ⟨EReal.add_bot _, EReal.add_bot _⟩

/-- The square of `A + ∑ (-w e)` equals the square of `A - ∑ w e` on the extended reals.
Either the sum of the negations is the negation of the sum, and the two numbers are equal; or
both sums are `⊥`, and then the left number is `A + ⊥ = ⊥` while the right one is
`A - ⊥ = A + ⊤`, which is `⊤` (or `⊥` when `A = ⊥`); in every case the square is
`⊥ * ⊥ = ⊤ * ⊤ = ⊤`. -/
theorem sq_add_sum_neg {ι : Type*} (A : EReal) (s : Finset ι) (w : ι → EReal) :
    (A + ∑ e ∈ s, -w e) * (A + ∑ e ∈ s, -w e) = (A - ∑ e ∈ s, w e) * (A - ∑ e ∈ s, w e) := by
  rcases sum_neg_or s w with h | ⟨h1, h2⟩
  · rw [h, ← sub_eq_add_neg]
  · rw [h1, h2, EReal.add_bot, EReal.bot_mul_bot]
    by_cases hA : A = ⊥
    · subst hA
      rw [sub_eq_add_neg, EReal.bot_add, EReal.bot_mul_bot]
    · rw [EReal.sub_bot hA, EReal.top_mul_top]

end Cert.LibSignedSquare
-- ==== Proof.Bridge.lean ====
/-
  THE TWO PROGRAMS COMPUTE ONE FUNCTION OF THE ARGUMENTS, on the extended reals.

  Per edge both compute the same weighted current I = |V_src − V_dst| / |(R + ε, X)| · p (the kernel on [50000, 128]
  layouts of the per-edge vectors, the reference on the flat vectors). They differ after that. The reference
  accumulates the currents at the destination nodes (inflow A) and, separately, at the source nodes (outflow B),
  and takes A − B. The kernel accumulates, in ONE pass over the two lists joined end to end, the currents at the
  destination nodes and the NEGATED currents at the source nodes: A + ∑ (−I). A current can be infinite here
  (|(R + ε, X)| vanishes at R = −ε, X = 0, and the weight has either sign), and on the extended reals
  ⊤ + ⊥ = ⊥, so the negation of a sum holding both infinities is not the sum of the negations: the two node sums
  can differ. But they differ only when both are infinite, and both programs go on with the SQUARE of the node
  sum, which is then ⊤ on both sides. The squares agree at every node, hence so do their means.
-/
import proofs.«181363_j38010460570136_2_alg».proof.Proof.KTail
import proofs.«181363_j38010460570136_2_alg».proof.Proof.KBlocks
import proofs.«181363_j38010460570136_2_alg».proof.Proof.KPrefix
import proofs.«181363_j38010460570136_2_alg».proof.Proof.Gen.ReferenceIdeal.Read
import proofs.«181363_j38010460570136_2_alg».proof.Proof.KRun
import proofs.«181363_j38010460570136_2_alg».proof.Proof.LibScatterConcat
import proofs.«181363_j38010460570136_2_alg».proof.Proof.LibSignedSquare
import Idealize.ShloMosaic.Lib.IdealHost
import Idealize.ShloMosaic.PureOps.Ideal.Laws
import Idealize.ShloMosaic.Lib.Pipeline.Value
import Idealize.ShloMosaic.Lib.ValueIdx

set_option maxRecDepth 16384

noncomputable section

open scoped BigOperators

namespace Cert.Bridge

open Idealize.ShloMosaic Idealize.ShloMosaic.ValueIdx
open Cert.ReferenceIdeal Cert.ReferenceIdeal.Gen Cert.ReferenceIdeal.Read
open Cert.KernelIdeal (Tail.flat Blocks.G Blocks.cur Prefix.rows)

variable (x0 : (⟨S100000x4, .f32⟩ : BufTy).Contents (Elt Ideal)) (x1 : (⟨S2x6400000, .i32⟩ : BufTy).Contents (Elt Ideal))
  (x2 : (⟨S6400000, .f32⟩ : BufTy).Contents (Elt Ideal)) (x3 : (⟨S6400000x2, .f32⟩ : BufTy).Contents (Elt Ideal))

/-- Entry e of a flat vector is entry (e / 128, e mod 128) of its [50000, 128] layout, and back. -/
theorem place (e : S6400000.Idx) :
    ((⟨2, ![50000, 128]⟩ : Shape).rowMajor (ix2 (n0 := 50000) (n1 := 128) ⟨(e 0).val / 128, by have h6 : (e 0).val < 6400000 := (e 0).isLt; show _ < 50000; omega⟩ ⟨(e 0).val % 128, Nat.mod_lt _ (by decide)⟩)).val
      = ((⟨1, ![6400000]⟩ : Shape).rowMajor e).val := by
  rewrite [Shape.rowMajor_val_two, Shape.rowMajor_val_one]
  show (e 0).val / 128 * 128 + (e 0).val % 128 = (e 0).val
  omega

/-- THE PER-EDGE CURRENTS AGREE. The call's result array, read flat, is the reference's vector of weighted
    currents: both are, edge by edge, the length of the feature difference divided by the length of
    (R + ε, X), times the edge's weight — the kernel on the [50000, 128] layouts of the five per-edge vectors,
    the reference on the flat vectors, the square root and the quotient the same functions of extended reals on
    the host and in the kernel. -/
theorem currents_eq :
    Cert.KernelIdeal.Tail.flat (F := Ideal)
      (Cert.KernelIdeal.Blocks.G (Cert.KernelIdeal.Prefix.rows (val_main_v24 (F := Ideal) x0 x1))
        (Cert.KernelIdeal.Prefix.rows (val_main_v27 (F := Ideal) x0 x1))
        (Cert.KernelIdeal.Prefix.rows (val_main_v32 (F := Ideal) x3))
        (Cert.KernelIdeal.Prefix.rows (val_main_v37 (F := Ideal) x3))
        (Cert.KernelIdeal.Prefix.rows x2))
      = val_main_v42 (F := Ideal) x0 x1 x2 x3 := by
  funext e
  have hk := place e
  unfold Cert.KernelIdeal.Tail.flat
  rw [shapeCast_apply _ _ e _ hk]
  unfold Cert.KernelIdeal.Blocks.G
  dsimp only
  have hr : ∀ v : (⟨S6400000, .f32⟩ : BufTy).Contents (Elt Ideal), Cert.KernelIdeal.Prefix.rows v
      (ix2 (n0 := 50000) (n1 := 128) ⟨(e 0).val / 128, by have h6 : (e 0).val < 6400000 := (e 0).isLt; show _ < 50000; omega⟩ ⟨(e 0).val % 128, Nat.mod_lt _ (by decide)⟩) = v e := fun v => by
    unfold Cert.KernelIdeal.Prefix.rows
    exact shapeCast_apply v _ _ e hk.symm
  rw [hr, hr, hr, hr, hr]
  rw [val_main_v42_apply, val_main_v41_apply, val_main_v30_apply, val_main_v29_apply, val_main_v25_apply, val_main_v28_apply,
    val_main_v40_apply, val_main_v39_apply, val_main_v35_apply, val_main_v38_apply, val_main_v34_apply, val_main_v33_apply,
    val_main_cst_apply]
  rfl

/-! ## The node sums -/

/-- The reference's signed node sum: what flows in (the currents accumulated at the destination nodes) minus what
    flows out (the same currents accumulated at the source nodes), each accumulation starting from zero. -/
def refNode (w : (⟨S6400000, .f32⟩ : BufTy).Contents (Elt Ideal)) (dst src : (⟨S6400000, .i32⟩ : BufTy).Contents (Elt Ideal)) :
    (⟨S100000, .f32⟩ : BufTy).Contents (Elt Ideal) :=
  subf (F := Ideal) (φ := .f32)
    (Host.scatterAdd scatter_S100000_S6400000x1_S6400000_n_0_0_1 (val_main_v43 (F := Ideal))
      (broadcastInDim S6400000x1 ![0] bcast_S6400000_S6400000x1_0 dst) w)
    (Host.scatterAdd scatter_S100000_S6400000x1_S6400000_n_0_0_1 (val_main_v46 (F := Ideal))
      (broadcastInDim S6400000x1 ![0] bcast_S6400000_S6400000x1_0 src) w)

/-- One accumulation read at a node: the operand there plus the updates landing there. -/
theorem scatterAdd_apply {s si u : Shape} (d : ScatterDims s si u) (x : s.Idx → EReal) (idx : IVec si 32) (upd : u.Idx → EReal) (i : s.Idx) :
    Host.scatterAdd (F := Ideal) (φ := .f32) d x idx upd i = Ideal.hostScatterAdd d x idx upd i := rfl

/-- The reference's node sums are `refNode` of its currents and of the two rows of the edge list. -/
theorem v49_eq : val_main_v49 (F := Ideal) x0 x1 x2 x3
    = refNode (val_main_v42 (F := Ideal) x0 x1 x2 x3) (val_main_v3 (F := Ideal) x1) (val_main_v1 (F := Ideal) x1) := by
  unfold val_main_v49 val_main_v45 val_main_v48 val_main_v44 val_main_v47 refNode
  rfl

/-- THE SQUARED NODE SUMS AGREE. At node i the kernel's sum is 0 + (A + ∑ −I) — its one accumulation over the
    joined lists split into the edges ending at i and the edges leaving i — and the reference's is
    (0 + A) − (0 + ∑ I), with A the currents of the edges ending at i and the sums over the edges leaving i; the
    squares of A + ∑ (−I) and A − ∑ I are equal on the extended reals. -/
theorem node_sq (w : (⟨S6400000, .f32⟩ : BufTy).Contents (Elt Ideal)) (dst src : (⟨S6400000, .i32⟩ : BufTy).Contents (Elt Ideal))
    (i : S100000.Idx) :
    Cert.KernelIdeal.Tail.nodeSum (F := Ideal) w dst src i * Cert.KernelIdeal.Tail.nodeSum (F := Ideal) w dst src i
      = refNode w dst src i * refNode w dst src i := by
  unfold Cert.KernelIdeal.Tail.nodeSum refNode
  rw [subf_apply, scatterAdd_apply, scatterAdd_apply, scatterAdd_apply]
  unfold Cert.KernelIdeal.scatter_S100000_S12800000x1_S12800000_n_0_0_1
  rw [Cert.LibScatterConcat.scatterAdd_concat scatter_S100000_S6400000x1_S6400000_n_0_0_1_wf _ _ _ bcast_S6400000_S6400000x1_0]
  unfold scatter_S100000_S6400000x1_S6400000_n_0_0_1 Ideal.hostScatterAdd
  rw [broadcastInDim_scalar_apply, val_main_v43_apply, val_main_v46_apply, val_main_cst_5_apply, val_main_cst_6_apply]
  have hz : constant (F := Ideal) Cert.KernelIdeal.S_ .f32 0x00000000#32 ix0 = 0 := Ideal.ofBits_zero_f32
  have hz' : FloatOps.ofBits (F := Ideal) .f32 0x00000000#32 = 0 := Ideal.ofBits_zero_f32
  have hneg : ∀ e : S6400000.Idx, Host.negf (F := Ideal) (φ := .f32) w e = -(w e) := fun _ => rfl
  simp only [hneg]
  rw [hz, hz', zero_add, zero_add, zero_add]
  dsimp only [Cert.LibScatterConcat.d1, Cert.LibScatterConcat.I1, S6400000x1]
  exact Cert.LibSignedSquare.sq_add_sum_neg _ _ _

/-! ## The results -/

/-- The kernel program's result and the reference's are one function of the four argument arrays: the same
    currents (`currents_eq`), the same squared node sums (`node_sq`), and then the same mean. -/
theorem value_eq : Cert.KernelIdeal.Result.value (F := Ideal) x0 x1 x2 x3 = val_main_v52 (F := Ideal) x0 x1 x2 x3 := by
  unfold Cert.KernelIdeal.Result.value Cert.KernelIdeal.Tail.tailOf
  rw [currents_eq]
  have hsq : mulf (F := Ideal) (φ := .f32)
      (Cert.KernelIdeal.Tail.nodeSum (F := Ideal) (val_main_v42 (F := Ideal) x0 x1 x2 x3) (val_main_v3 (F := Ideal) x1) (val_main_v1 (F := Ideal) x1))
      (Cert.KernelIdeal.Tail.nodeSum (F := Ideal) (val_main_v42 (F := Ideal) x0 x1 x2 x3) (val_main_v3 (F := Ideal) x1) (val_main_v1 (F := Ideal) x1))
      = val_main_v50 (F := Ideal) x0 x1 x2 x3 := by
    funext i
    rw [mulf_apply, node_sq, val_main_v50_apply, v49_eq]
    rfl
  rw [hsq]
  unfold Cert.KernelIdeal.Tail.meanOf val_main_v52 val_main_v51 val_main_cst_7 val_main_cst_8
  rfl

end Cert.Bridge
end
-- ==== Proof.lean ====
/-
  The certificate of a graph kernel against its reference: the mean over 100000 nodes of the squared signed sum of
  per-edge weighted currents (6400000 edges), the kernel with one Pallas call for the per-edge arithmetic and one
  accumulation over the joined edge lists, the reference with plain array operations and two accumulations.

  Frames: the two kernel programs' frames are the generated ones (a one-region program whose body loads, computes
  and stores whole blocks); the reference's frame is its generated run with the result dropped.
  Preserves: the idealization rewrote nothing, so there is nothing to state.
  Algebraic: the kernel program's run ends with its result at `Result.value` of the arguments (Proof/KRun.lean:
  the lines before the call, the call's result array block by block, the lines after it), the reference's at its
  generated term, and the two are one function of the arguments on the extended reals (Proof/Bridge.lean). The
  precondition is never opened: the per-edge currents are the same expression on both sides, and the one law
  that joins the two accumulations — the square of A + ∑ (−I) is the square of A − ∑ I — holds at the
  infinities too.
-/
import proofs.«181363_j38010460570136_2_alg».proof.Defs
import proofs.«181363_j38010460570136_2_alg».proof.Proof.Gen.Kernel
import proofs.«181363_j38010460570136_2_alg».proof.Proof.Gen.Kernel.Frame
import proofs.«181363_j38010460570136_2_alg».proof.Proof.Gen.KernelIdeal
import proofs.«181363_j38010460570136_2_alg».proof.Proof.Gen.KernelIdeal.Frame
import proofs.«181363_j38010460570136_2_alg».proof.Proof.Gen.ReferenceIdeal
import proofs.«181363_j38010460570136_2_alg».proof.Proof.Gen.ReferenceIdeal.Run
import proofs.«181363_j38010460570136_2_alg».proof.Proof.Gen.ReferenceIdeal.Read
import proofs.«181363_j38010460570136_2_alg».proof.Proof.Gen.Pre_finite_inputs
import proofs.«181363_j38010460570136_2_alg».proof.Proof.KRun
import proofs.«181363_j38010460570136_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, from memories agreeing on the arguments, to the same result: the kernel program's run ends
    at `Result.value` of its arguments, the reference's at its generated term of its own, and these are one function. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2]
  exact (Cert.Bridge.value_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
